-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S256x257 : Shape := ⟨2, ![256, 257]⟩
abbrev S256 : Shape := ⟨1, ![256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel
  bcast_S_S256x257 : S_.BroadcastsInDim S256x257 (![] : Fin 0 → Fin S256x257.rank)
  reducesTo_S256x257_S_d0_1 : S256x257.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x64x256 .f32) (main_arg1 : FVec F S4096x64x256 .f32) (main_arg2 : FVec F S256x257 .f32) (main_arg3 : FVec F S256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  let main_v4 : FVec F S4096x64x256 .f32 := Host.absf main_arg1
  let main_cst_0 : FVec F S_ .f32 := constant S_ .f32 0x7F800000#32
  let main_v5 : FVec F S4096x64x256 .f32 := broadcastInDim S4096x64x256 ![] bcast_S_S4096x64x256 main_cst_0
  let main_v6 : IVec S4096x64x256 1 := cmpf .olt main_v4 main_v5
  let main_c_1 : IVec S_ 1 := constantI S_ 1 1#1
  let main_v7 : IVec S_ 1 := (fun x v => Host.reduce IntOp.andi x v reducesTo_S4096x64x256_S_d0_1_2 h_S_) main_v6 main_c_1
  let main_v8 : IVec S_ 1 := andi main_v3 main_v7
  let main_v9 : FVec F S256x257 .f32 := Host.absf main_arg2
  let main_cst_2 : FVec F S_ .f32 := constant S_ .f32 0x7F800000#32
  let main_v10 : FVec F S256x257 .f32 := broadcastInDim S256x257 ![] bcast_S_S256x257 main_cst_2
  let main_v11 : IVec S256x257 1 := cmpf .olt main_v9 main_v10
  let main_c_3 : IVec S_ 1 := constantI S_ 1 1#1
  let main_v12 : IVec S_ 1 := (fun x v => Host.reduce IntOp.andi x v reducesTo_S256x257_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x64x256 : Shape := ⟨3, ![4096, 64, 256]⟩
abbrev S256x257 : Shape := ⟨2, ![256, 257]⟩
abbrev S256 : Shape := ⟨1, ![256]⟩
abbrev S256x256 : Shape := ⟨2, ![256, 256]⟩
abbrev S256x1 : Shape := ⟨2, ![256, 1]⟩
abbrev S1x1x256 : Shape := ⟨3, ![1, 1, 256]⟩
abbrev S64x64x256 : Shape := ⟨3, ![64, 64, 256]⟩
abbrev S64x64 : Shape := ⟨2, ![64, 64]⟩
abbrev S64x64x1 : Shape := ⟨3, ![64, 64, 1]⟩
abbrev S4096x256 : Shape := ⟨2, ![4096, 256]⟩

abbrev nBuf : Space → Nat
  | .hbm => 11
  | .vmem => 9
  | .smem => 0
  | _ => 0

abbrev bufTy : (tb : Table) → Fin (tcTables nBuf tb) → BufTy
  | .hbm, ⟨0, _⟩ => ⟨S4096x64x256, .f32⟩
  | .hbm, ⟨1, _⟩ => ⟨S4096x64x256, .f32⟩
  | .hbm, ⟨2, _⟩ => ⟨S256x257, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256x1, .f32⟩
  | .hbm, ⟨7, _⟩ => ⟨S256, .f32⟩
  | .hbm, ⟨8, _⟩ => ⟨S1x1x256, .f32⟩
  | .hbm, ⟨9, _⟩ => ⟨S1x1x256, .f32⟩
  | .hbm, ⟨10, _⟩ => ⟨S4096x64x256, .f32⟩
  | .local _ .vmem, ⟨0, _⟩ => ⟨S64x64x256, .f32⟩
  | .local _ .vmem, ⟨1, _⟩ => ⟨S64x64x256, .f32⟩
  | .local _ .vmem, ⟨2, _⟩ => ⟨S64x64x256, .f32⟩
  | .local _ .vmem, ⟨3, _⟩ => ⟨S64x64x256, .f32⟩
  | .local _ .vmem, ⟨4, _⟩ => ⟨S256x256, .f32⟩
  | .local _ .vmem, ⟨5, _⟩ => ⟨S1x1x256, .f32⟩
  | .local _ .vmem, ⟨6, _⟩ => ⟨S1x1x256, .f32⟩
  | .local _ .vmem, ⟨7, _⟩ => ⟨S64x64x256, .f32⟩
  | .local _ .vmem, ⟨8, _⟩ => ⟨S64x64x256, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x257_S256x256_0_0 : S256x257.Slices ![0, 0] S256x256
  transposes_S256x256_S256x256_1_0 : S256x256.Transposes [1, 0] S256x256
  slices_S256x257_S256x1_0_256 : S256x257.Slices ![0, 256] S256x1
  shapeCasts_S256x1_S256 : S256x1.ShapeCasts S256
  shapeCasts_S256_S1x1x256 : S256.ShapeCasts S1x1x256
  inb_S64x64x256_S64x64x256_0_0_0 : ∀ a, (![0, 0, 0] : Fin 3 → Nat) a + S64x64x256.size a ≤ S64x64x256.size a
  h_S64x64x256 : 0 < S64x64x256.numel
  reduces_S64x64x256_S64x64 : S64x64x256.Reduces [2] S64x64
  shapeCasts_S64x64_S64x64x1 : S64x64.ShapeCasts S64x64x1
  broadcasts_S64x64x1_S64x64x256 : S64x64x1.Broadcasts S64x64x256
  shapeCasts_S64x64x256_S4096x256 : S64x64x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S64x64x256 : S4096x256.ShapeCasts S64x64x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S64x64x256 : S1x1x256.Broadcasts S64x64x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S4096x64x256.size a
  hwx0_0 : ∀ i : grid0.Coords, EltTy.bits .f32 = 32 ∨ (Rect.block (s := S4096x64x256) S64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S4096x64x256.size a
  hwx0_1 : ∀ i : grid0.Coords, EltTy.bits .f32 = 32 ∨ (Rect.block (s := S4096x64x256) S64x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S1x1x256.size a
  hwx0_3 : ∀ i : grid0.Coords, EltTy.bits .f32 = 32 ∨ (Rect.block (s := S1x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S1x1x256.size a
  hwx0_4 : ∀ i : grid0.Coords, EltTy.bits .f32 = 32 ∨ (Rect.block (s := S1x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64x256.size a ≤ S4096x64x256.size a
  hwx0_5 : ∀ i : grid0.Coords, EltTy.bits .f32 = 32 ∨ (Rect.block (s := S4096x64x256) S64x64x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S256x257 : Shape := ⟨2, ![256, 257]⟩
abbrev S256 : Shape := ⟨1, ![256]⟩
abbrev S_ : Shape := ⟨0, ![]⟩
abbrev S4096x64 : Shape := ⟨2, ![4096, 64]⟩
abbrev S4096x64x1 : Shape := ⟨3, ![4096, 64, 1]⟩
abbrev S4096x64x257 : Shape := ⟨3, ![4096, 64, 257]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S4096x64x256, .f32⟩
  | .hbm, ⟨1, _⟩ => ⟨S4096x64x256, .f32⟩
  | .hbm, ⟨2, _⟩ => ⟨S256x257, .f32⟩
  | .hbm, ⟨3, _⟩ => ⟨S256, .f32⟩
  | .hbm, ⟨4, _⟩ => ⟨S4096x64x256, .f32⟩
  | .hbm, ⟨5, _⟩ => ⟨S_, .f32⟩
  | .hbm, ⟨6, _⟩ => ⟨S4096x64, .f32⟩
  | .hbm, ⟨7, _⟩ => ⟨S4096x64x1, .f32⟩
  | .hbm, ⟨8, _⟩ => ⟨S4096x64x1, .f32⟩
  | .hbm, ⟨9, _⟩ => ⟨S_, .f32⟩
  | .hbm, ⟨10, _⟩ => ⟨S4096x64x1, .f32⟩
  | .hbm, ⟨11, _⟩ => ⟨S4096x64x1, .f32⟩
  | .hbm, ⟨12, _⟩ => ⟨S4096x64x256, .f32⟩
  | .hbm, ⟨13, _⟩ => ⟨S4096x64x256, .f32⟩
  | .hbm, ⟨14, _⟩ => ⟨S4096x64x256, .f32⟩
  | .hbm, ⟨15, _⟩ => ⟨S_, .f32⟩
  | .hbm, ⟨16, _⟩ => ⟨S4096x64, .f32⟩
  | .hbm, ⟨17, _⟩ => ⟨S4096x64x1, .f32⟩
  | .hbm, ⟨18, _⟩ => ⟨S4096x64x1, .f32⟩
  | .hbm, ⟨19, _⟩ => ⟨S_, .f32⟩
  | .hbm, ⟨20, _⟩ => ⟨S4096x64x1, .f32⟩
  | .hbm, ⟨21, _⟩ => ⟨S4096x64x1, .f32⟩
  | .hbm, ⟨22, _⟩ => ⟨S4096x64x256, .f32⟩
  | .hbm, ⟨23, _⟩ => ⟨S4096x64x256, .f32⟩
  | .hbm, ⟨24, _⟩ => ⟨S4096x64x256, .f32⟩
  | .hbm, ⟨25, _⟩ => ⟨S_, .f32⟩
  | .hbm, ⟨26, _⟩ => ⟨S4096x64, .f32⟩
  | .hbm, ⟨27, _⟩ => ⟨S4096x64x1, .f32⟩
  | .hbm, ⟨28, _⟩ => ⟨S_, .f32⟩
  | .hbm, ⟨29, _⟩ => ⟨S4096x64x1, .f32⟩
  | .hbm, ⟨30, _⟩ => ⟨S4096x64x1, .f32⟩
  | .hbm, ⟨31, _⟩ => ⟨S4096x64x257, .f32⟩
  | .hbm, ⟨32, _⟩ => ⟨S4096x64x256, .f32⟩
  | .hbm, ⟨33, _⟩ => ⟨S1x1x256, .f32⟩
  | .hbm, ⟨34, _⟩ => ⟨S4096x64x256, .f32⟩
  | .hbm, ⟨35, _⟩ => ⟨S4096x64x256, .f32⟩
  | .hbm, ⟨36, _⟩ => ⟨S4096x64x256, .f32⟩
  | .hbm, ⟨37, _⟩ => ⟨S4096x64x256, .f32⟩
  | .hbm, ⟨38, _⟩ => ⟨S_, .f32⟩
  | .hbm, ⟨39, _⟩ => ⟨S4096x64x256, .f32⟩
  | .hbm, ⟨40, _⟩ => ⟨S4096x64x256, .f32⟩
  | .hbm, ⟨41, _⟩ => ⟨S_, .f32⟩
  | .hbm, ⟨42, _⟩ => ⟨S4096x64x256, .f32⟩
  | .hbm, ⟨43, _⟩ => ⟨S4096x64x256, .f32⟩
  | .hbm, ⟨44, _⟩ => ⟨S4096x64x256, .f32⟩
  | .hbm, ⟨45, _⟩ => ⟨S4096x64x256, .f32⟩
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S4096x64x256_S4096x64_d2 : S4096x64x256.ReducesTo [2] S4096x64
  h_S_ : 0 < S_.numel
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x256_0_1_2 : S4096x64x1.BroadcastsInDim S4096x64x256 (![0, 1, 2] : Fin 3 → Fin S4096x64x256.rank)
  concatenates_S4096x64x256_S4096x64x1_S4096x64x257_d2 : Shape.Concatenates [S4096x64x256, S4096x64x1] S4096x64x257 2
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  bcast_S_S4096x64x256 : S_.BroadcastsInDim S4096x64x256 (![] : Fin 0 → Fin S4096x64x256.rank)
  dot_S4096x64x257_S256x257_S4096x64x256_2_1_01_0_n_n_wf : DotDims.WF S4096x64x257 S256x257 S4096x64x256 [2] [1] [0, 1] [0] [] []

variable [Facts₀]

def dot_S4096x64x257_S256x257_S4096x64x256_2_1_01_0_n_n : DotDims S4096x64x257 S256x257 S4096x64x256 where
  lhsContracting := [2]
  rhsContracting := [1]
  lhsNonContracting := [0, 1]
  rhsNonContracting := [0]
  lhsBatch := []
  rhsBatch := []
  wf := dot_S4096x64x257_S256x257_S4096x64x256_2_1_01_0_n_n_wf

class Facts : Prop extends Facts₀ where

variable [Facts]
-- ==== Proof.RowGate.lean ====
/-
  The gated residual of one row, over the extended reals.

  Two rows `r₀` (predicted features) and `r₁` (later features) of 256 entries are each divided by their Euclidean norm, the
  norm clamped from below by a small floor; the distance of the rows is one minus the inner product of the two scaled rows.
  A linear layer with a 256 × 257 weight matrix `w` and a bias then reads the 257 numbers `(r₁, distance)`: output `o` of the
  layer is `Σₖ r₁ k · w (o, k) + distance · w (o, 256) + bias o`. The result at `o` is `r₁ o · σ(layer o) + r₁ o` with `σ` the
  logistic function. The whole arrays `[L, B, 256]` are treated row by row: the result at `(l, b, o)` is the row function of
  rows `(l, b)` of the two inputs.

  One law joins a program that multiplies the 257-entry concatenation `(r₁, distance)` by the whole weight matrix with one
  that multiplies `r₁` by the first 256 columns and adds the distance times the last column: a sum over 257 terms is the sum
  of its first 256 terms plus the last term. It is a law of any commutative additive monoid, so no entry has to be finite.
-/
import Idealize.ShloMosaic.PureOps.Ideal
import Idealize.ShloMosaic.Lib.ValueIdx

noncomputable section

open scoped BigOperators

namespace Cert.RowGate

open Idealize.ShloMosaic Idealize.ShloMosaic.ValueIdx

/-- The floor under a row's norm (the single-precision number nearest 1e-12). -/
def normFloor : EReal := Ideal.ofBits .f32 0x2B8CBCCC#32

/-- The number one, as its single-precision pattern. -/
def one32 : EReal := Ideal.ofBits .f32 0x3F800000#32

/-- A row's Euclidean norm, not below the floor. -/
def clampedNorm (r : Fin 256 → EReal) : EReal := max (Ideal.sqrt (∑ k : Fin 256, r k * r k)) normFloor

/-- One minus the inner product of the two rows, each divided by its clamped norm. -/
def cosDist (r0 r1 : Fin 256 → EReal) : EReal :=
  one32 - ∑ k : Fin 256, Ideal.div (r0 k) (clampedNorm r0) * Ideal.div (r1 k) (clampedNorm r1)

/-- Output `o` of the linear layer on `(r₁, distance)`: the first 256 columns of row `o` of `w` against `r₁`, the last column
    against the distance, and the bias. -/
def logit (r0 r1 : Fin 256 → EReal) (w : (⟨2, ![256, 257]⟩ : Shape).Idx → EReal) (bias : (⟨1, ![256]⟩ : Shape).Idx → EReal)
    (o : Fin 256) : EReal :=
  (∑ k : Fin 256, r1 k * w (ix2 o k.castSucc)) + cosDist r0 r1 * w (ix2 o (Fin.last 256)) + bias (ix1 o)

/-- The gated residual of the row at `o`. -/
def gated (r0 r1 : Fin 256 → EReal) (w : (⟨2, ![256, 257]⟩ : Shape).Idx → EReal) (bias : (⟨1, ![256]⟩ : Shape).Idx → EReal)
    (o : Fin 256) : EReal :=
  r1 o * Ideal.logistic (logit r0 r1 w bias o) + r1 o

/-- Row `(l, b)` of an `[L, B, 256]` array. -/
def row {L B : ℕ} (x : (⟨3, ![L, B, 256]⟩ : Shape).Idx → EReal) (l : Fin L) (b : Fin B) : Fin 256 → EReal :=
  fun k => x (ix3 l b k)

/-- The whole result: at `(l, b, o)` the gated residual of rows `(l, b)`. -/
def out {L B : ℕ} (x0 x1 : (⟨3, ![L, B, 256]⟩ : Shape).Idx → EReal) (w : (⟨2, ![256, 257]⟩ : Shape).Idx → EReal)
    (bias : (⟨1, ![256]⟩ : Shape).Idx → EReal) : (⟨3, ![L, B, 256]⟩ : Shape).Idx → EReal :=
  fun j => gated (row x0 (j 0) (j 1)) (row x1 (j 0) (j 1)) w bias (j 2)

theorem out_apply {L B : ℕ} (x0 x1 : (⟨3, ![L, B, 256]⟩ : Shape).Idx → EReal) (w : (⟨2, ![256, 257]⟩ : Shape).Idx → EReal)
    (bias : (⟨1, ![256]⟩ : Shape).Idx → EReal) (l : Fin L) (b : Fin B) (o : Fin 256) :
    out x0 x1 w bias (ix3 l b o) = gated (row x0 l b) (row x1 l b) w bias o := rfl

/-- A sum of 257 products whose left factors are the 256 entries of `r` followed by `d`: the first 256 products, then the last. -/
theorem sum_joined (r : Fin 256 → EReal) (d : EReal) (cat wrow : Fin 257 → EReal)
    (hl : ∀ k : Fin 256, cat k.castSucc = r k) (hr : cat (Fin.last 256) = d) :
    ∑ k : Fin 257, cat k * wrow k = (∑ k : Fin 256, r k * wrow k.castSucc) + d * wrow (Fin.last 256) := by
  rw [Fin.sum_univ_castSucc, hr]
  exact congrArg (· + d * wrow (Fin.last 256)) (Finset.sum_congr rfl fun k _ => by rw [hl k])

end Cert.RowGate

end
-- ==== Proof.LibJoinLast.lean ====
/-
  Two three-axis arrays joined along their last axis, read at coordinates.

  The concatenation of an `[a, b, c]` array and an `[a, b, d]` array along axis 2 is an `[a, b, n]` array (`n = c + d`). At
  `(i, j, k)` with `k < c` it reads the first array at `(i, j, k)`; at `(i, j, c + k')` it reads the second array at `(i, j, k')`.
-/
import Idealize.ShloMosaic.Lib.Pipeline.Value
import Idealize.ShloMosaic.Lib.ValueIdx

namespace Cert.Lib.JoinLast

open Idealize.ShloMosaic Idealize.ShloMosaic.ValueIdx

variable {α : Type}

/-- At a last coordinate inside the first piece the join reads the first piece at the same coordinates. -/
theorem join_last_left {a b c d n : ℕ} (x1 : (⟨3, ![a, b, c]⟩ : Shape).Idx → α) (x2 : (⟨3, ![a, b, d]⟩ : Shape).Idx → α)
    (h : Shape.Concatenates [(⟨3, ![a, b, c]⟩ : Shape), (⟨3, ![a, b, d]⟩ : Shape)] (⟨3, ![a, b, n]⟩ : Shape) 2)
    (i : Fin a) (j : Fin b) (k : Fin n) (k1 : Fin c) (hk : k1.val = k.val) :
    concatenate (⟨3, ![a, b, n]⟩ : Shape) 2 [⟨(⟨3, ![a, b, c]⟩ : Shape), x1⟩, ⟨(⟨3, ![a, b, d]⟩ : Shape), x2⟩] h (ix3 i j k)
      = x1 (ix3 i j k1) :=
  concatenate_pair_apply_left 2 x1 x2 h (ix3 i j k) rfl (ix3 i j k1) fun ax => by
    match ax with
    | ⟨0, _⟩ => rfl
    | ⟨1, _⟩ => rfl
    | ⟨2, _⟩ => exact hk

/-- At a last coordinate past the first piece the join reads the second piece, the first piece's extent taken off that coordinate. -/
theorem join_last_right {a b c d n : ℕ} (x1 : (⟨3, ![a, b, c]⟩ : Shape).Idx → α) (x2 : (⟨3, ![a, b, d]⟩ : Shape).Idx → α)
    (h : Shape.Concatenates [(⟨3, ![a, b, c]⟩ : Shape), (⟨3, ![a, b, d]⟩ : Shape)] (⟨3, ![a, b, n]⟩ : Shape) 2)
    (i : Fin a) (j : Fin b) (k : Fin n) (k2 : Fin d) (hk : k2.val + c = k.val) :
    concatenate (⟨3, ![a, b, n]⟩ : Shape) 2 [⟨(⟨3, ![a, b, c]⟩ : Shape), x1⟩, ⟨(⟨3, ![a, b, d]⟩ : Shape), x2⟩] h (ix3 i j k)
      = x2 (ix3 i j k2) :=
  concatenate_pair_apply_right 2 x1 x2 h (ix3 i j k) rfl rfl (ix3 i j k2) (fun ax hne => by
    match ax with
    | ⟨0, _⟩ => rfl
    | ⟨1, _⟩ => rfl
    | ⟨2, _⟩ => exact absurd rfl hne) hk

end Cert.Lib.JoinLast
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.RefGate.lean ====
/-
  The reference program computes the row-wise gated residual.

  Read one operation at a time at coordinates `(l, b, o)`: the clamped norms of rows `(l, b)` of the two inputs (a sum of
  squares started from zero, a square root, a maximum with the floor, kept as a unit axis and copied back along the row), the
  distance of the rows (one minus the sum of the products of the scaled entries), the concatenation of the later row with the
  distance as a 257th entry, its product with row `o` of the weight matrix plus the bias, and `x · 1/(1 + e^{-logit}) + x`.
  The product over 257 entries splits into the first 256 and the last (`RowGate.sum_joined`), and `1/(1 + e^{-t})` is the
  logistic function of `t`.
-/
import proofs.«132932_j78099685310666_1_alg».proof.Proof.RefRead
import proofs.«132932_j78099685310666_1_alg».proof.Proof.RowGate
import proofs.«132932_j78099685310666_1_alg».proof.Proof.LibJoinLast
import proofs.«132932_j78099685310666_1_alg».proof.Proof.LibAxisLayout
import Idealize.ShloMosaic.Lib.IdealHost
import Idealize.ShloMosaic.PureOps.Ideal.Laws

noncomputable section

open scoped BigOperators

namespace Cert.ReferenceIdeal.RefGate

open Cert.ReferenceIdeal Cert.ReferenceIdeal.ReadP Idealize.ShloMosaic Idealize.ShloMosaic.ValueIdx
open Cert.RowGate Cert.Lib.AxisLayout Cert.Lib.JoinLast

/-- The three-axis feature arrays, the weight matrix and the bias vector, as functions of their indices. -/
abbrev Feat := (⟨3, ![4096, 64, 256]⟩ : Shape).Idx → EReal
abbrev Wgt := (⟨2, ![256, 257]⟩ : Shape).Idx → EReal
abbrev Bias := (⟨1, ![256]⟩ : Shape).Idx → EReal

/-- The kept norm of the first input at `(l, b, 0)` is the clamped norm of its row `(l, b)`. -/
theorem norm_pred (x0 : Feat) (l : Fin 4096) (b : Fin 64) :
    val_main_v5 (F := Ideal) x0 (ix3 l b (0 : Fin 1)) = clampedNorm (row x0 l b) := by
  have e2 : idx_main_v2 (ix3 l b (0 : Fin 1)) = ix2 l b := ext2 rfl rfl
  have e1 : ∀ k : Fin 256, idx_main_v1 (ix2 l b) k = ix3 l b k := fun k => ext3 rfl rfl rfl
  rw [val_main_v5_apply, val_main_v3_apply, val_main_v2_apply, e2, val_main_v1_apply, val_main_v4_apply,
    val_main_cst_0_apply, val_main_cst_apply]
  simp only [e1, val_main_v0_apply, Ideal.maximumf_def, Ideal.hostUnary_sqrt_def, Ideal.mulf_def, Ideal.ofBits_def,
    Ideal.ofBits_zero_f32, zero_add]
  rfl

/-- The kept norm of the second input at `(l, b, 0)` is the clamped norm of its row `(l, b)`. -/
theorem norm_later (x1 : Feat) (l : Fin 4096) (b : Fin 64) :
    val_main_v13 (F := Ideal) x1 (ix3 l b (0 : Fin 1)) = clampedNorm (row x1 l b) := by
  have e2 : idx_main_v10 (ix3 l b (0 : Fin 1)) = ix2 l b := ext2 rfl rfl
  have e1 : ∀ k : Fin 256, idx_main_v9 (ix2 l b) k = ix3 l b k := fun k => ext3 rfl rfl rfl
  rw [val_main_v13_apply, val_main_v11_apply, val_main_v10_apply, e2, val_main_v9_apply, val_main_v12_apply,
    val_main_cst_2_apply, val_main_cst_1_apply]
  simp only [e1, val_main_v8_apply, Ideal.maximumf_def, Ideal.hostUnary_sqrt_def, Ideal.mulf_def, Ideal.ofBits_def,
    Ideal.ofBits_zero_f32, zero_add]
  rfl

/-- The kept distance at `(l, b, 0)` is the distance of rows `(l, b)`. -/
theorem dist_rows (x0 x1 : Feat) (l : Fin 4096) (b : Fin 64) :
    val_main_v20 (F := Ideal) x0 x1 (ix3 l b (0 : Fin 1)) = cosDist (row x0 l b) (row x1 l b) := by
  have e18 : idx_main_v18 (ix3 l b (0 : Fin 1)) = ix2 l b := ext2 rfl rfl
  have e17 : ∀ k : Fin 256, idx_main_v17 (ix2 l b) k = ix3 l b k := fun k => ext3 rfl rfl rfl
  have e6 : ∀ k : Fin 256, idx_main_v6 (ix3 l b k) = ix3 l b (0 : Fin 1) := fun k => ext3 rfl rfl rfl
  have e14 : ∀ k : Fin 256, idx_main_v14 (ix3 l b k) = ix3 l b (0 : Fin 1) := fun k => ext3 rfl rfl rfl
  rw [val_main_v20_apply, val_main_v19_apply, val_main_cst_4_apply, val_main_v18_apply, e18, val_main_v17_apply,
    val_main_cst_3_apply]
  simp only [e17, val_main_v16_apply, val_main_v7_apply, val_main_v15_apply, val_main_v6_apply, val_main_v14_apply, e6, e14,
    norm_pred, norm_later, Ideal.subf_def, Ideal.mulf_def, Ideal.hostDivf_def, Ideal.ofBits_def, Ideal.ofBits_zero_f32, zero_add]
  rfl

/-- The linear layer's output at `(l, b, o)`: the 257-term product splits into the later row against the first 256 columns
    and the distance against the last. -/
theorem logit_rows (x0 x1 : Feat) (x2 : Wgt) (x3 : Bias) (l : Fin 4096) (b : Fin 64) (o : Fin 256) :
    val_main_v25 (F := Ideal) x0 x1 x2 x3 (ix3 l b o) = logit (row x0 l b) (row x1 l b) x2 x3 o := by
  have e24 : idx_main_v23 (idx_main_v24 (ix3 l b o)) = ix1 o := ext1 rfl
  have el : ∀ k : Fin 257, lidx_main_v22 (ix3 l b o) k = ix3 l b k := fun k => ext3 rfl rfl rfl
  have er : ∀ k : Fin 257, ridx_main_v22 (ix3 l b o) k = ix2 o k := fun k => ext2 rfl rfl
  rw [val_main_v25_apply, val_main_v24_apply, val_main_v23_apply, e24, val_main_v22_apply]
  simp only [el, er, Ideal.addf_def]
  unfold logit
  refine congrArg (· + x3 (ix1 o)) ?_
  refine sum_joined (row x1 l b) (cosDist (row x0 l b) (row x1 l b))
    (fun k => val_main_v21 (F := Ideal) x0 x1 (ix3 l b k)) (fun k => x2 (ix2 o k)) (fun k => ?_) ?_
  · unfold val_main_v21
    exact join_last_left x1 _ _ l b k.castSucc k rfl
  · unfold val_main_v21
    rw [join_last_right x1 _ _ l b (Fin.last 256) (0 : Fin 1) rfl]
    exact dist_rows x0 x1 l b

/-- THE REFERENCE'S RESULT is the row-wise gated residual of its arguments. -/
theorem result_eq (x0 x1 : Feat) (x2 : Wgt) (x3 : Bias) :
    val_main_v33 (F := Ideal) x0 x1 x2 x3 = out x0 x1 x2 x3 := by
  funext j
  obtain ⟨l, b, o, rfl⟩ : ∃ (l : Fin 4096) (b : Fin 64) (o : Fin 256), j = ix3 l b o := ⟨j 0, j 1, j 2, eq_ix3 j⟩
  rw [out_apply, val_main_v33_apply, val_main_v32_apply, val_main_v31_apply, val_main_v30_apply, val_main_cst_6_apply,
    val_main_v29_apply, val_main_v28_apply, val_main_cst_5_apply, val_main_v27_apply, val_main_v26_apply, logit_rows]
  simp only [Ideal.addf_def, Ideal.mulf_def, Ideal.hostDivf_def, Ideal.hostUnary_exp_def, Ideal.hostNegf_def, Ideal.negf_def,
    Ideal.ofBits_def, Ideal.ofBits_one_f32]
  rfl

end Cert.ReferenceIdeal.RefGate

end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibTrailingRow.lean ====
/-
  A vector carried as the last axis of a three-axis array with two leading unit axes, read at coordinates.

  A length-`c` vector laid out as `[1, 1, c]` reads at `(0, 0, k)` the vector at `k`; a one-column matrix `[c, 1]` flattened to
  `[c]` reads at `k` the matrix at `(k, 0)`; and `[1, 1, c]` copied along both leading axes into `[a, b, c]` reads at `(i, j, k)`
  the operand at `(0, 0, k)`. A row-major re-layout keeps every element's position, and a unit coordinate is zero.
-/
import Idealize.ShloMosaic.Lib.Pipeline.Value
import Idealize.ShloMosaic.Lib.ValueIdx

namespace Cert.Lib.TrailingRow

open Idealize.ShloMosaic Idealize.ShloMosaic.ValueIdx

variable {α : Type}

/-- `[c] → [1, 1, c]`: at `(u, v, k)` the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- `[c, 1] → [c]`: at `k` the one-column matrix at `(k, 0)`. -/
theorem shapeCast_c1_c_apply {c : ℕ} (x : (⟨2, ![c, 1]⟩ : Shape).Idx → α) (h : (⟨2, ![c, 1]⟩ : Shape).ShapeCasts ⟨1, ![c]⟩)
    (k : Fin c) : shapeCast ⟨1, ![c]⟩ x h (ix1 k) = x (ix2 k (0 : Fin 1)) :=
  shapeCast_apply x h _ _ (by
    rw [Shape.rowMajor_val_two, Shape.rowMajor_val_one]
    show k.val * 1 + 0 = k.val
    rw [Nat.mul_one, Nat.add_zero])

/-- `[1, 1, c] → [a, b, c]`: at `(i, j, k)` the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib.TrailingRow
-- ==== Proof.BlockGate.lean ====
/-
  What the kernel body stores, at coordinates: the gated residual of the block's rows.

  The body holds a `[64, 64, 256]` block of each input, the transposed main part of the weight matrix `[256, 256]` (entry
  `(k, o)` is weight `(o, k)`), its last column and the bias as `[1, 1, 256]` rows. Read at `(p, q, o)`: the sums of squares
  along the last axis, kept as a unit axis, give each row's clamped norm; the distance of rows `(p, q)` is one minus the sum of
  the products of the scaled entries; the block of later features, flattened to `[4096, 256]` (row `p · 64 + q`), times the
  transposed weights is `Σₖ later (p, q, k) · wᵀ (k, o)`; adding the distance times the last column and the bias gives the
  linear layer's output, and the stored value is `later · σ(output) + later`.
-/
import proofs.«132932_j78099685310666_1_alg».proof.Proof.Gen.KernelIdeal.Skeleton
import proofs.«132932_j78099685310666_1_alg».proof.Proof.RowGate
import proofs.«132932_j78099685310666_1_alg».proof.Proof.LibAxisLayout
import proofs.«132932_j78099685310666_1_alg».proof.Proof.LibMergeRows
import proofs.«132932_j78099685310666_1_alg».proof.Proof.LibPlainMatmul
import proofs.«132932_j78099685310666_1_alg».proof.Proof.LibTrailingRow
import Idealize.ShloMosaic.Lib.Pipeline.Value
import Idealize.ShloMosaic.Lib.ValueIdx
import Idealize.ShloMosaic.PureOps.Ideal.Laws

noncomputable section

open scoped BigOperators

namespace Cert.KernelIdeal.BlockGate

open Cert.KernelIdeal Cert.KernelIdeal.Gen Idealize.ShloMosaic Idealize.ShloMosaic.ValueIdx
open Cert.RowGate Cert.Lib.AxisLayout Cert.Lib.MergeRows Cert.Lib.TrailingRow

/-- A block's sum along the last axis, kept as a unit axis, at `(p, q, 0)`: the sum over the row. -/
theorem kept_sum (x : FVec Ideal S64x64x256 .f32) (p q : Fin 64) :
    shapeCast S64x64x1 (multiReduction .add [2] S64x64 x 0x00000000#32 reduces_S64x64x256_S64x64 (.inl rfl) rfl)
        shapeCasts_S64x64_S64x64x1 (ix3 p q (0 : Fin 1))
      = ∑ k : Fin 256, x (ix3 p q k) :=
  (shapeCast_ab_ab1_apply _ shapeCasts_S64x64_S64x64x1 p q (0 : Fin 1)).trans
    (sum_last_apply x 0x00000000#32 reduces_S64x64x256_S64x64 (.inl rfl) rfl p q)

/-- The kept clamped norm of a block at `(p, q, 0)` is the clamped norm of row `(p, q)`. -/
theorem kept_norm (x : FVec Ideal S64x64x256 .f32) (p q : Fin 64) :
    maximumf (sqrt (shapeCast S64x64x1 (multiReduction .add [2] S64x64 (mulf x x) 0x00000000#32 reduces_S64x64x256_S64x64 (.inl rfl) rfl)
        shapeCasts_S64x64_S64x64x1)) (broadcast S64x64x1 (Scalar.ofBits .f32 0x2B8CBCCC#32)) (ix3 p q (0 : Fin 1))
      = clampedNorm (row x p q) :=
  congrArg₂ max (congrArg Ideal.sqrt (kept_sum (mulf x x) p q)) rfl

/-- A block divided by a kept column copied back along the rows, at `(p, q, k)`. -/
theorem scaled_apply (x : FVec Ideal S64x64x256 .f32) (n : FVec Ideal S64x64x1 .f32) (p q : Fin 64) (k : Fin 256) :
    divf x (broadcastTo S64x64x256 n broadcasts_S64x64x1_S64x64x256) (ix3 p q k)
      = Ideal.div (x (ix3 p q k)) (n (ix3 p q (0 : Fin 1))) :=
  congrArg (Ideal.div (x (ix3 p q k))) (broadcastTo_ab1_abc_apply n broadcasts_S64x64x1_S64x64x256 p q k)

/-- The kept distance of the block's rows at `(p, q, 0)`, from the two kept norms. -/
theorem kept_dist (x0 x1 : FVec Ideal S64x64x256 .f32) (n0 n1 : FVec Ideal S64x64x1 .f32) (p q : Fin 64)
    (h0 : n0 (ix3 p q (0 : Fin 1)) = clampedNorm (row x0 p q)) (h1 : n1 (ix3 p q (0 : Fin 1)) = clampedNorm (row x1 p q)) :
    subf (broadcast S64x64x1 (Scalar.ofBits .f32 0x3F800000#32))
        (shapeCast S64x64x1 (multiReduction .add [2] S64x64
          (mulf (divf x0 (broadcastTo S64x64x256 n0 broadcasts_S64x64x1_S64x64x256))
            (divf x1 (broadcastTo S64x64x256 n1 broadcasts_S64x64x1_S64x64x256)))
          0x00000000#32 reduces_S64x64x256_S64x64 (.inl rfl) rfl) shapeCasts_S64x64_S64x64x1) (ix3 p q (0 : Fin 1))
      = cosDist (row x0 p q) (row x1 p q) := by
  refine congrArg (one32 - ·) ((kept_sum _ p q).trans (Finset.sum_congr rfl fun k _ => ?_))
  show divf x0 _ (ix3 p q k) * divf x1 _ (ix3 p q k) = _
  rw [scaled_apply, scaled_apply, h0, h1]
  rfl

/-- Row `p · 64 + q` of the flattened block. -/
def flatRow (p q : Fin 64) : Fin 4096 := ⟨p.val * 64 + q.val, by have := p.isLt; have := q.isLt; omega⟩

/-- The flattened block of later features times the transposed weights, laid back as a block, at `(p, q, o)`. -/
theorem main_apply (x1 : FVec Ideal S64x64x256 .f32) (wt : FVec Ideal S256x256 .f32) (p q : Fin 64) (o : Fin 256) :
    shapeCast S64x64x256 (matmul dot_S4096x256_S256x256_S4096x256_1_0_0_1_n_n none
        (shapeCast S4096x256 x1 shapeCasts_S64x64x256_S4096x256) (shapeCast S256x256 wt shapeCasts_S256x256_S256x256)
        (constant S4096x256 .f32 0x00000000#32)) shapeCasts_S4096x256_S64x64x256 (ix3 p q o)
      = ∑ k : Fin 256, x1 (ix3 p q k) * wt (ix2 k o) := by
  refine (split_apply _ shapeCasts_S4096x256_S64x64x256 p q o (flatRow p q) rfl).trans ?_
  rw [shapeCast_self]
  refine (Idealize.ShloMosaic.PlainMatmul.matmul_zero_apply dot_S4096x256_S256x256_S4096x256_1_0_0_1_n_n rfl rfl rfl rfl rfl rfl
    none _ wt (flatRow p q) o).trans ?_
  exact Finset.sum_congr rfl fun k _ =>
    congrArg (· * wt (ix2 k o)) (merge_apply x1 shapeCasts_S64x64x256_S4096x256 p q k (flatRow p q) rfl)

/-- The linear layer's output as the body computes it, at `(p, q, o)`. -/
theorem logit_apply (x0 x1 : FVec Ideal S64x64x256 .f32) (x2 : FVec Ideal S256x256 .f32) (x3 x4 : FVec Ideal S1x1x256 .f32)
    (p q : Fin 64) (o : Fin 256) :
    k0_pay2 (F := Ideal) x0 x1 x2 x3 x4 (ix3 p q o)
      = (∑ k : Fin 256, x1 (ix3 p q k) * x2 (ix2 k o))
        + cosDist (row x0 p q) (row x1 p q) * x3 (ix3 (0 : Fin 1) (0 : Fin 1) o) + x4 (ix3 (0 : Fin 1) (0 : Fin 1) o) := by
  unfold k0_pay2
  refine congrArg₂ (· + ·) (congrArg₂ (· + ·) (main_apply x1 x2 p q o) (congrArg₂ (· * ·) ?_ ?_)) ?_
  · refine (broadcastTo_ab1_abc_apply _ broadcasts_S64x64x1_S64x64x256 p q o).trans ?_
    exact kept_dist x0 x1 _ _ p q (kept_norm x0 p q) (kept_norm x1 p q)
  · refine (broadcastTo_11c_abc_apply _ broadcasts_S1x1x256_S64x64x256 p q o).trans ?_
    rw [shapeCast_self]
  · refine (broadcastTo_11c_abc_apply _ broadcasts_S1x1x256_S64x64x256 p q o).trans ?_
    rw [shapeCast_self]

/-- WHAT THE BODY STORES at `(p, q, o)`, when the block of transposed weights, the last column and the bias row read the
    weight matrix and the bias vector as stated: the gated residual of rows `(p, q)` of the two input blocks. -/
theorem stored_apply (x0 x1 : FVec Ideal S64x64x256 .f32) (x2 : FVec Ideal S256x256 .f32) (x3 x4 : FVec Ideal S1x1x256 .f32)
    (w : (⟨2, ![256, 257]⟩ : Shape).Idx → EReal) (bias : (⟨1, ![256]⟩ : Shape).Idx → EReal) (p q : Fin 64) (o : Fin 256)
    (hw : ∀ k : Fin 256, x2 (ix2 k o) = w (ix2 o k.castSucc))
    (hl : x3 (ix3 (0 : Fin 1) (0 : Fin 1) o) = w (ix2 o (Fin.last 256)))
    (hb : x4 (ix3 (0 : Fin 1) (0 : Fin 1) o) = bias (ix1 o)) :
    k0_pay1 (F := Ideal) x1 (k0_pay2 x0 x1 x2 x3 x4) (ix3 p q o) = gated (row x0 p q) (row x1 p q) w bias o := by
  unfold k0_pay1
  refine (congrArg (fun t => x1 (ix3 p q o) * Ideal.logistic t + x1 (ix3 p q o)) (logit_apply x0 x1 x2 x3 x4 p q o)).trans ?_
  rw [hl, hb]
  simp only [hw]
  rfl

end Cert.KernelIdeal.BlockGate

end
-- ==== Proof.GateRun.lean ====
/-
  The kernel's result array is the row-wise gated residual of the argument arrays.

  The grid has 64 points; point `t` works on rows `64 t … 64 t + 63` of the two feature arrays and of the result, and on the
  whole of three small arrays prepared before the launch: the transposed main part of the weight matrix (entry `(k, o)` is
  weight `(o, k)`), the weight matrix's last column as a `[1, 1, 256]` row, and the bias as a `[1, 1, 256]` row. So what point
  `t` writes back at `(p, q, o)` is the gated residual of rows `(64 t + p, q)` of the arguments (`BlockGate.stored_apply`), which
  is block `t` of one whole-array function; the 64 blocks cover the result array (row `r` lies in block `r / 64`).
-/
import proofs.«132932_j78099685310666_1_alg».proof.Proof.Gen.KernelIdeal.Value
import proofs.«132932_j78099685310666_1_alg».proof.Proof.BlockGate
import proofs.«132932_j78099685310666_1_alg».proof.Proof.LibTrailingRow
import Idealize.ShloMosaic.Lib.Pipeline.Value
import Idealize.ShloMosaic.Lib.StableHlo.Run
import Idealize.ShloMosaic.Lib.ValueIdx

noncomputable section

namespace Cert.KernelIdeal.GateRun

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.RowGate Cert.Lib.TrailingRow

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The argument arrays and the result as a function of them -/

/-- The predicted features, the later features, the weight matrix and the bias as launched on core `c`. -/
abbrev pred (c : Dev nD) : (⟨3, ![4096, 64, 256]⟩ : Shape).Idx → EReal := m ((c : Thread nD τ).loc main_arg0)
abbrev later (c : Dev nD) : (⟨3, ![4096, 64, 256]⟩ : Shape).Idx → EReal := m ((c : Thread nD τ).loc main_arg1)
abbrev wgt (c : Dev nD) : (⟨2, ![256, 257]⟩ : Shape).Idx → EReal := m ((c : Thread nD τ).loc main_arg2)
abbrev bias (c : Dev nD) : (⟨1, ![256]⟩ : Shape).Idx → EReal := m ((c : Thread nD τ).loc main_arg3)

/-- The result array: the row-wise gated residual of the arguments. -/
abbrev result (c : Dev nD) : (⟨3, ![4096, 64, 256]⟩ : Shape).Idx → EReal := out (pred m c) (later m c) (wgt m c) (bias m c)

/-! ## The three small arrays prepared before the launch -/

/-- The transposed main part of the weight matrix. -/
theorem V_wt (c : Dev nD) : (V m c main_v1 : S256x256.Idx → EReal)
    = transpose S256x256 [1, 0] (extractStridedSlice S256x256 ![0, 0] (wgt m c) slices_S256x257_S256x256_0_0)
        transposes_S256x256_S256x256_1_0 := by
  dsimp only [Gen.V, Gen.hostOps0]; after_results

/-- The weight matrix's last column as a `[1, 1, 256]` row. -/
theorem V_last (c : Dev nD) : (V m c main_v4 : S1x1x256.Idx → EReal)
    = shapeCast S1x1x256 (shapeCast S256 (extractStridedSlice S256x1 ![0, 256] (wgt m c) slices_S256x257_S256x1_0_256)
        shapeCasts_S256x1_S256) shapeCasts_S256_S1x1x256 := by
  dsimp only [Gen.V, Gen.hostOps0]; after_results; rfl

/-- The bias as a `[1, 1, 256]` row. -/
theorem V_bias (c : Dev nD) : (V m c main_v5 : S1x1x256.Idx → EReal)
    = shapeCast S1x1x256 (bias m c) shapeCasts_S256_S1x1x256 := by
  dsimp only [Gen.V, Gen.hostOps0]; after_results; rfl

/-- Entry `(k, o)` of the transposed main part is weight `(o, k)`. -/
theorem wt_apply (c : Dev nD) (k o : Fin 256) :
    (V m c main_v1 : S256x256.Idx → EReal) (ix2 k o) = wgt m c (ix2 o k.castSucc) := by
  rw [V_wt]
  refine (transpose_apply [1, 0] _ transposes_S256x256_S256x256_1_0 (ix2 k o) (ix2 o k) (fun b => ?_)).trans ?_
  · match b with
    | ⟨0, _⟩ => rfl
    | ⟨1, _⟩ => rfl
  · exact extractStridedSlice_apply ![0, 0] _ slices_S256x257_S256x256_0_0 (ix2 o k) (ix2 o k.castSucc) (fun a => by
      match a with
      | ⟨0, _⟩ => exact (Nat.zero_add _).symm
      | ⟨1, _⟩ => exact (Nat.zero_add _).symm)

/-- Entry `o` of the last-column row is weight `(o, 256)`. -/
theorem last_apply (c : Dev nD) (o : Fin 256) :
    (V m c main_v4 : S1x1x256.Idx → EReal) (ix3 (0 : Fin 1) (0 : Fin 1) o) = wgt m c (ix2 o (Fin.last 256)) := by
  rw [V_last]
  refine (shapeCast_c_11c_apply _ shapeCasts_S256_S1x1x256 (0 : Fin 1) (0 : Fin 1) o).trans ?_
  refine (shapeCast_c1_c_apply _ shapeCasts_S256x1_S256 o).trans ?_
  exact extractStridedSlice_apply ![0, 256] _ slices_S256x257_S256x1_0_256 (ix2 o (0 : Fin 1)) (ix2 o (Fin.last 256)) (fun a => by
    match a with
    | ⟨0, _⟩ => exact (Nat.zero_add _).symm
    | ⟨1, _⟩ => rfl)

/-- Entry `o` of the bias row is bias `o`. -/
theorem bias_apply (c : Dev nD) (o : Fin 256) :
    (V m c main_v5 : S1x1x256.Idx → EReal) (ix3 (0 : Fin 1) (0 : Fin 1) o) = bias m c (ix1 o) := by
  rw [V_bias]
  exact shapeCast_c_11c_apply _ shapeCasts_S256_S1x1x256 (0 : Fin 1) (0 : Fin 1) o

/-! ## The blocks at a grid point -/

/-- The printed index maps over the grid: the feature windows and the result window move with the point along axis 0; the
    three small windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The block of predicted features at point `t` holds rows `64 t + p` of the argument. -/
theorem pred_blk (c : Dev nD) (t : Fin cfg0.N) (p q : Fin 64) (k : Fin 256) (l : Fin 4096) (hl : l.val = t.val * 64 + p.val) :
    (iblk m c 0 t : Vec Ideal S64x64x256 .f32) (ix3 p q k) = pred m c (ix3 l q k) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 64 + 1 * p.val = l.val; rw [e0, hl]; omega
  | ⟨1, _⟩ => show win0_0.index t (1 : Fin 3) * 64 + 1 * q.val = q.val; rw [e1]; omega
  | ⟨2, _⟩ => show win0_0.index t (2 : Fin 3) * 256 + 1 * k.val = k.val; rw [e2]; omega

/-- The block of later features at point `t` holds rows `64 t + p` of the argument. -/
theorem later_blk (c : Dev nD) (t : Fin cfg0.N) (p q : Fin 64) (k : Fin 256) (l : Fin 4096) (hl : l.val = t.val * 64 + p.val) :
    (iblk m c 1 t : Vec Ideal S64x64x256 .f32) (ix3 p q k) = later m c (ix3 l q k) := by
  obtain ⟨-, -, -, e0, e1, e2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 64 + 1 * p.val = l.val; rw [e0, hl]; omega
  | ⟨1, _⟩ => show win0_1.index t (1 : Fin 3) * 64 + 1 * q.val = q.val; rw [e1]; omega
  | ⟨2, _⟩ => show win0_1.index t (2 : Fin 3) * 256 + 1 * k.val = k.val; rw [e2]; omega

/-- The block of transposed weights at any point is the whole array. -/
theorem wt_blk (c : Dev nD) (t : Fin cfg0.N) (k o : Fin 256) :
    (iblk m c 2 t : Vec Ideal S256x256 .f32) (ix2 k o) = (V m c main_v1 : S256x256.Idx → EReal) (ix2 k o) := by
  obtain ⟨-, -, -, -, -, -, e0, e1, -⟩ := idx_facts t
  unfold iblk
  rw [View.read_apply]
  show V m c main_v1 _ = _
  refine congrArg (V m c main_v1) (funext fun a => Fin.ext ?_)
  match a with
  | ⟨0, _⟩ => show win0_2.index t (0 : Fin 2) * 256 + 1 * k.val = k.val; rw [e0]; omega
  | ⟨1, _⟩ => show win0_2.index t (1 : Fin 2) * 256 + 1 * o.val = o.val; rw [e1]; omega

/-- The last-column row at any point is the whole array. -/
theorem last_blk (c : Dev nD) (t : Fin cfg0.N) (o : Fin 256) :
    (iblk m c 3 t : Vec Ideal S1x1x256 .f32) (ix3 (0 : Fin 1) (0 : Fin 1) o)
      = (V m c main_v4 : S1x1x256.Idx → EReal) (ix3 (0 : Fin 1) (0 : Fin 1) o) := by
  obtain ⟨-, -, -, -, -, -, -, -, e0, e1, e2, -⟩ := idx_facts t
  unfold iblk
  rw [View.read_apply]
  show V m c main_v4 _ = _
  refine congrArg (V m c main_v4) (funext fun a => Fin.ext ?_)
  match a with
  | ⟨0, _⟩ => show win0_3.index t (0 : Fin 3) * 1 + 1 * 0 = 0; rw [e0]
  | ⟨1, _⟩ => show win0_3.index t (1 : Fin 3) * 1 + 1 * 0 = 0; rw [e1]
  | ⟨2, _⟩ => show win0_3.index t (2 : Fin 3) * 256 + 1 * o.val = o.val; rw [e2]; omega

/-- The bias row at any point is the whole array. -/
theorem bias_blk (c : Dev nD) (t : Fin cfg0.N) (o : Fin 256) :
    (iblk m c 4 t : Vec Ideal S1x1x256 .f32) (ix3 (0 : Fin 1) (0 : Fin 1) o)
      = (V m c main_v5 : S1x1x256.Idx → EReal) (ix3 (0 : Fin 1) (0 : Fin 1) o) := by
  obtain ⟨-, -, -, -, -, -, -, -, -, -, -, e0, e1, e2, -⟩ := idx_facts t
  unfold iblk
  rw [View.read_apply]
  show V m c main_v5 _ = _
  refine congrArg (V m c main_v5) (funext fun a => Fin.ext ?_)
  match a with
  | ⟨0, _⟩ => show win0_4.index t (0 : Fin 3) * 1 + 1 * 0 = 0; rw [e0]
  | ⟨1, _⟩ => show win0_4.index t (1 : Fin 3) * 1 + 1 * 0 = 0; rw [e1]
  | ⟨2, _⟩ => show win0_4.index t (2 : Fin 3) * 256 + 1 * o.val = o.val; rw [e2]; omega

/-- WHAT POINT `t` STORES at `y` is the result function at any index `j` with the block's row offset added on axis 0. -/
theorem point_stores (c : Dev nD) (t : Fin cfg0.N) (y : S64x64x256.Idx) (j : S4096x64x256.Idx)
    (h0 : (j 0).val = t.val * 64 + (y 0).val) (h1 : (j 1).val = (y 1).val) (h2 : (j 2).val = (y 2).val) :
    k0_pay1 (F := Ideal) (iblk m c 1 t) (k0_pay2 (iblk m c 0 t) (iblk m c 1 t) (iblk m c 2 t) (iblk m c 3 t) (iblk m c 4 t)) y
      = result m c j := by
  obtain ⟨p, q, o, rfl⟩ : ∃ (p q : Fin 64) (o : Fin 256), y = ix3 p q o := ⟨y 0, y 1, y 2, eq_ix3 y⟩
  obtain ⟨l, b, o', rfl⟩ : ∃ (l : Fin 4096) (b : Fin 64) (o' : Fin 256), j = ix3 l b o' := ⟨j 0, j 1, j 2, eq_ix3 j⟩
  obtain rfl : b = q := Fin.ext h1
  obtain rfl : o' = o := Fin.ext h2
  have hl : l.val = t.val * 64 + p.val := h0
  refine (BlockGate.stored_apply (iblk m c 0 t) (iblk m c 1 t) (iblk m c 2 t) (iblk m c 3 t) (iblk m c 4 t) (wgt m c) (bias m c)
    p b o' (fun k => (wt_blk m c t k o').trans (wt_apply m c k o')) ((last_blk m c t o').trans (last_apply m c o'))
    ((bias_blk m c t o').trans (bias_apply m c o'))).trans ?_
  have r0 : row (iblk m c 0 t) p b = row (pred m c) l b := funext fun k => pred_blk m c t p b k l hl
  have r1 : row (iblk m c 1 t) p b = row (later m c) l b := funext fun k => later_blk m c t p b k l hl
  rw [r0, r1]
  rfl

/-! ## From the blocks to the array -/

/-- What point `t` writes back is block `t` of the result function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S64x64x256) hz3, View.ld_unit_zero (S := S256x256) hz2, View.ld_unit_zero (S := S1x1x256) hz3]
  obtain ⟨-, -, -, -, -, -, -, -, -, -, -, -, -, -, e0, e1, e2⟩ := idx_facts t
  funext y
  refine point_stores m c t y (((cfg0.win 5).blk t).view.emb y) ?_ ?_ ?_
  · show win0_5.index t (0 : Fin 3) * 64 + 1 * (y 0).val = t.val * 64 + (y 0).val; rw [e0]; omega
  · show win0_5.index t (1 : Fin 3) * 64 + 1 * (y 1).val = (y 1).val; rw [e1]; omega
  · show win0_5.index t (2 : Fin 3) * 256 + 1 * (y 2).val = (y 2).val; rw [e2]; omega

/-- An index of the result array is in point `t`'s block iff each coordinate is in the block's range on its axis. -/
theorem mem_blk (t : Fin cfg0.N) (i : S4096x64x256.Idx) :
    i ∈ ((cfg0.win 5).blk t).view.set ↔ ∀ a : Fin 3, win0_5.index t a * S64x64x256.size a ≤ (i a).val
      ∧ (i a).val < win0_5.index t a * S64x64x256.size a + S64x64x256.size a := by
  show i ∈ ((View.whole main_v6).slice (win0_5.rect t)).set ↔ _
  rw [View.set_slice_whole, Rect.mem_set_unit]
  exact Iff.rfl

/-- Every index of the result array lies in the block of the point its row falls to. -/
theorem cover (i : S4096x64x256.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hi2 : (i 2).val < 256 := (i 2).isLt
  have hN : cfg0.N = 64 := N_0
  have ht : (i 0).val / 64 < cfg0.N := by rw [hN]; omega
  obtain ⟨-, -, -, -, -, -, -, -, -, -, -, -, -, -, e0, e1, e2⟩ := idx_facts ⟨(i 0).val / 64, ht⟩
  refine ⟨⟨(i 0).val / 64, ht⟩, flush0_5 _, ?_⟩
  rw [mem_blk]
  intro a
  match a with
  | ⟨0, _⟩ =>
    show win0_5.index ⟨(i 0).val / 64, ht⟩ (0 : Fin 3) * 64 ≤ (i 0).val
      ∧ (i 0).val < win0_5.index ⟨(i 0).val / 64, ht⟩ (0 : Fin 3) * 64 + 64
    rw [e0]; show (i 0).val / 64 * 64 ≤ (i 0).val ∧ (i 0).val < (i 0).val / 64 * 64 + 64; omega
  | ⟨1, _⟩ =>
    show win0_5.index ⟨(i 0).val / 64, ht⟩ (1 : Fin 3) * 64 ≤ (i 1).val
      ∧ (i 1).val < win0_5.index ⟨(i 0).val / 64, ht⟩ (1 : Fin 3) * 64 + 64
    rw [e1]; omega
  | ⟨2, _⟩ =>
    show win0_5.index ⟨(i 0).val / 64, ht⟩ (2 : Fin 3) * 256 ≤ (i 2).val
      ∧ (i 2).val < win0_5.index ⟨(i 0).val / 64, ht⟩ (2 : Fin 3) * 256 + 256
    rw [e2]; omega

/-- THE RESULT ARRAY after the run is the row-wise gated residual of the arguments. -/
theorem final (c : Dev nD) : (dats m 0 c).arrAt 5 cfg0.N = result m c :=
  (dats m 0 c).arrAt_eq_of_cover 5 (result m c) (fun t _ => flushed_eq m c t) cover

/-- The run, read: the result array at the gated residual of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GateRun

end
-- ==== Proof.lean ====
/-
  The kernel against its reference, over the extended reals: a gated residual of row features.

  Both programs take two `[4096, 64, 256]` feature arrays (predicted and later), a `[256, 257]` weight matrix and a `[256]`
  bias. Each row of 256 features is divided by its Euclidean norm (not below a floor of about 1e-12); the distance of the two
  rows is one minus the inner product of the scaled rows; a linear layer reads the later row followed by the distance (257
  numbers) and a logistic function of its output gates the later row: `out = later · σ(W · (later, distance) + b) + later`.

  The reference concatenates the later features with the distance and multiplies by the whole weight matrix. The kernel works
  on 64 blocks of 64 rows each and never forms the concatenation: it multiplies the block of later features by the transposed
  first 256 columns and adds the distance times the last column. The two agree because a sum of 257 products is the sum of the
  first 256 plus the last one — a law of addition alone, so nothing has to be finite and the precondition is not used. The
  kernel's logistic function is `1 / (1 + e^{-t})` at the extended reals, which is how the reference spells it.

  Both sides are brought to one function of the argument arrays (`RowGate.out`): the reference's run read one operation at a
  time (`RefGate.result_eq`), and the kernel's result array as the union of the blocks its 64 grid points write back
  (`GateRun.run`). The idealized kernel is the kernel's own text read at the extended reals (no rewrite), so nothing is owed
  for it beyond its frame.
-/
import proofs.«132932_j78099685310666_1_alg».proof.Defs
import proofs.«132932_j78099685310666_1_alg».proof.Proof.Gen.Kernel
import proofs.«132932_j78099685310666_1_alg».proof.Proof.Gen.Kernel.Skeleton
import proofs.«132932_j78099685310666_1_alg».proof.Proof.Gen.Kernel.Launch
import proofs.«132932_j78099685310666_1_alg».proof.Proof.Gen.Kernel.Points
import proofs.«132932_j78099685310666_1_alg».proof.Proof.Gen.Kernel.Frame
import proofs.«132932_j78099685310666_1_alg».proof.Proof.Gen.KernelIdeal
import proofs.«132932_j78099685310666_1_alg».proof.Proof.Gen.KernelIdeal.Skeleton
import proofs.«132932_j78099685310666_1_alg».proof.Proof.Gen.KernelIdeal.Launch
import proofs.«132932_j78099685310666_1_alg».proof.Proof.Gen.KernelIdeal.Points
import proofs.«132932_j78099685310666_1_alg».proof.Proof.Gen.KernelIdeal.Frame
import proofs.«132932_j78099685310666_1_alg».proof.Proof.Gen.ReferenceIdeal
import proofs.«132932_j78099685310666_1_alg».proof.Proof.Gen.KernelIdeal.Value
import proofs.«132932_j78099685310666_1_alg».proof.Proof.RefRun
import proofs.«132932_j78099685310666_1_alg».proof.Proof.RefRead
import proofs.«132932_j78099685310666_1_alg».proof.Proof.RefGate
import proofs.«132932_j78099685310666_1_alg».proof.Proof.GateRun
import proofs.«132932_j78099685310666_1_alg».proof.Proof.Gen.Pre_finite_inputs
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference's run, with its result forgotten, is its frame. -/
theorem frame_reference_ideal : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the row-wise gated residual of the arguments in their
    result arrays: the kernel by its blocks (`GateRun.run`), the reference by its operations (`RefGate.result_eq`). -/
theorem algebraic : Cert.algebraic_KernelIdeal_ReferenceIdeal := by
  intro m ρ m' ρ' _ hagree
  refine ⟨fun c => Cert.KernelIdeal.GateRun.result m c, Cert.KernelIdeal.GateRun.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v33_eq, Cert.ReferenceIdeal.RefGate.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
